-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768 .f32) (main_arg1 : IVec S128x32768 1) : IVec S_ 1 :=
  let main_v0 : FVec F S128x32768 .f32 := Host.absf main_arg0
  let main_cst : FVec F S_ .f32 := constant S_ .f32 0x7F800000#32
  let main_v1 : FVec F S128x32768 .f32 := broadcastInDim S128x32768 ![] bcast_S_S128x32768 main_cst
  let main_v2 : IVec S128x32768 1 := cmpf .olt main_v0 main_v1
  let main_c : IVec S_ 1 := constantI S_ 1 1#1
  let main_v3 : IVec S_ 1 := (fun x v => Host.reduce IntOp.andi x v reducesTo_S128x32768_S_d0_1 h_S_) main_v2 main_c
  main_v3
-- ==== Kernel.lean ====
abbrev S128x32768 : Shape := ⟨2, ![128, 32768]⟩
abbrev S128x8192 : Shape := ⟨2, ![128, 8192]⟩

abbrev nBuf : Space → Nat
  | .hbm => 4
  | .vmem => 6
  | .smem => 0
  | _ => 0

abbrev bufTy : (tb : Table) → Fin (tcTables nBuf tb) → BufTy
  | .hbm, ⟨0, _⟩ => ⟨S128x32768, .f32⟩
  | .hbm, ⟨1, _⟩ => ⟨S128x32768, .i1⟩
  | .hbm, ⟨2, _⟩ => ⟨S128x32768, .i32⟩
  | .hbm, ⟨3, _⟩ => ⟨S128x32768, .f32⟩
  | .local _ .vmem, ⟨0, _⟩ => ⟨S128x8192, .f32⟩
  | .local _ .vmem, ⟨1, _⟩ => ⟨S128x8192, .f32⟩
  | .local _ .vmem, ⟨2, _⟩ => ⟨S128x8192, .i32⟩
  | .local _ .vmem, ⟨3, _⟩ => ⟨S128x8192, .i32⟩
  | .local _ .vmem, ⟨4, _⟩ => ⟨S128x8192, .f32⟩
  | .local _ .vmem, ⟨5, _⟩ => ⟨S128x8192, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S128x8192_S128x8192_0_0 : ∀ a, (![0, 0] : Fin 2 → Nat) a + S128x8192.size a ≤ S128x8192.size a
  h_S128x8192 : 0 < S128x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x32768.size a
  hwx0_0 : ∀ i : grid0.Coords, EltTy.bits .f32 = 32 ∨ (Rect.block (s := S128x32768) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x32768.size a
  hwx0_1 : ∀ i : grid0.Coords, EltTy.bits .i32 = 32 ∨ (Rect.block (s := S128x32768) S128x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x32768.size a
  hwx0_2 : ∀ i : grid0.Coords, EltTy.bits .f32 = 32 ∨ (Rect.block (s := S128x32768) S128x8192.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x32768 : Shape := ⟨2, ![128, 32768]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .i1⟩
  | .hbm, ⟨2, _⟩ => ⟨S_, .f32⟩
  | .hbm, ⟨3, _⟩ => ⟨S128x32768, .f32⟩
  | .hbm, ⟨4, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  bcast_S_S128x32768 : S_.BroadcastsInDim S128x32768 (![] : Fin 0 → Fin S128x32768.rank)

variable [Facts₀]

class Facts : Prop extends Facts₀ where

variable [Facts]
-- ==== Proof.Keep.lean ====
/-
  The function both programs compute, and the one fact about bits the kernel's spelling of it needs.

  Given an array `x` of floats and an array `mk` of single bits over the same shape, `keep mk x` holds `x i` at every
  index `i` whose bit is set, and the float of the all-zero word at every other index. It is pointwise: entry `i`
  depends on `mk i` and `x i` only, so a block of `keep mk x` is `keep` of the corresponding blocks of `mk` and `x`,
  whatever the blocks are. No arithmetic is done on the floats, so nothing here depends on the float instance and no
  finiteness is needed.

  The kernel never sees the bits themselves. Before the launch each bit is widened with zeros to a 32-bit word, and
  the body asks of each word whether it differs from the zero word. A bit widened with zeros differs from zero exactly
  when it is set (`widened_ne_zero`), so the body's condition at an index is the original bit.
-/
import Idealize.ShloMosaic.PureOps

noncomputable section

namespace Cert.Keep

open Idealize.ShloMosaic

variable {F : FTy → Type} [FloatOps F]

/-- `x` where the bit is set, the float of the zero word elsewhere. -/
def keep {s : Shape} (mk : IVec s 1) (x : FVec F s .f32) : FVec F s .f32 :=
  fun i => Scalar.select (mk i) (x i) (FloatOps.ofBits .f32 0x00000000#32)

theorem keep_apply {s : Shape} (mk : IVec s 1) (x : FVec F s .f32) (i : s.Idx) :
    keep mk x i = Scalar.select (mk i) (x i) (FloatOps.ofBits .f32 0x00000000#32) := rfl

/-- A single bit widened with zeros to 32 bits is not the zero word exactly when the bit is set: the one-bit answer
    of the comparison is the bit itself. Both bits are checked. -/
theorem widened_ne_zero (b : BitVec 1) : IntOp.cmpi .ne (b.setWidth 32) 0#32 = b := by
  rcases BitVec.eq_zero_or_eq_one b with rfl | rfl <;> rfl

end Cert.Keep

end
-- ==== Proof.RefKeep.lean ====
/-
  The reference's result, read index by index, is `keep` of its two arguments.

  The reference selects, at every index, `x` where the mask's bit is set and otherwise an entry of an array it made by
  broadcasting one scalar, the float of the all-zero word, over the whole shape. A broadcast scalar reads the same at
  every index, so the second branch is that float, and the selection is `keep mask x`.
-/
import proofs.«165465_g51719996178485_cont_8to1c4_819_24_alg».proof.Proof.Gen.ReferenceIdeal.Read
import proofs.«165465_g51719996178485_cont_8to1c4_819_24_alg».proof.Proof.Keep

noncomputable section

namespace Cert.ReferenceIdeal.RefValue

open Cert.ReferenceIdeal Cert.ReferenceIdeal.Gen Idealize.ShloMosaic

variable {F : FTy → Type} [FloatOps F]

/-- The term the reference's run ends at is `keep` of the mask and the floats. -/
theorem result_eq (x : FVec F S128x32768 .f32) (mk : IVec S128x32768 1) :
    select mk x (broadcastInDim S128x32768 ![] bcast_S_S128x32768 (constant S_ .f32 0x00000000#32))
      = Cert.Keep.keep mk x := by
  rw [Read.val_main_v1_eq]
  funext i
  rw [Read.val_main_v1_apply, Read.val_main_v0_apply, Read.val_main_cst_apply]
  rfl

end Cert.ReferenceIdeal.RefValue

end
-- ==== Proof.BlockKeep.lean ====
/-
  What the kernel's body computes on one block, and what the second window's array holds when the region is entered.

  The body loads a block `w` of 32-bit words and a block `v` of floats and stores, at every index `j` of the block,
  `v j` if the word `w j` differs from the zero word and the float of the all-zero word otherwise (`payload_apply`).

  The words are not an argument of the program: one host operation before the launch widens every bit of the mask
  argument with zeros to 32 bits, and the second window stages that array (`entry_words`). The first window stages
  the float argument as launched (the generated `V_main_arg0`).
-/
import proofs.«165465_g51719996178485_cont_8to1c4_819_24_alg».proof.Proof.Gen.KernelIdeal.Frame
import proofs.«165465_g51719996178485_cont_8to1c4_819_24_alg».proof.Proof.Keep
import Idealize.ShloMosaic.Lib.StableHlo.Run

noncomputable section

namespace Cert.KernelIdeal.BlockValue

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The body's one stored value at an index of the block: the float where the word is not zero, else the float of
    the zero word. -/
theorem payload_apply (w : Vec F S128x8192 .i32) (v : Vec F S128x8192 .f32) (j : S128x8192.Idx) :
    k0_pay1 w v j = Scalar.select (IntOp.cmpi .ne (w j) 0#32) (v j) (FloatOps.ofBits .f32 0x00000000#32) := rfl

/-- When the region is entered the second window's array holds the mask argument, each bit widened with zeros to a
    32-bit word. -/
theorem entry_words (c : Dev nD) :
    (V m c main_v0 : S128x32768.Idx → BitVec 32)
      = extui 32 (m ((c : Thread nD τ).loc main_arg1) : S128x32768.Idx → BitVec 1) natLt_1_32 := by
  dsimp only [Gen.V, Gen.hostOps0]
  after_results

end Cert.KernelIdeal.BlockValue

end
-- ==== Proof.ArrayKeep.lean ====
/-
  From blocks to the whole array: after the kernel's run its result array is `keep mask x`.

  The result array has 128 rows and 32768 columns and is written in four blocks of 8192 columns, all 128 rows each; grid
  point `t` writes columns `8192 t … 8192 t + 8191`. At the same point the two input windows stage the same rows and
  columns of their own arrays (`block_indices`: the three index maps agree at every point). So entry `j` of the block
  written at point `t` is computed from the entries of the two input arrays at the SAME array index that `j` has in
  the result array. With the body's arithmetic (`payload_apply`), the second array's contents (each mask bit widened
  to a word, `entry_words`) and the fact that a widened bit is non-zero exactly when set (`widened_ne_zero`), that
  entry is `keep mask x` at that index (`flushed_eq`).

  Every index of the array lies in exactly the block of the point `column / 8192` (`covered`), so the blocks cover the
  array and the array ends at `keep mask x` (`final`, `run`).
-/
import proofs.«165465_g51719996178485_cont_8to1c4_819_24_alg».proof.Proof.Gen.KernelIdeal.Value
import proofs.«165465_g51719996178485_cont_8to1c4_819_24_alg».proof.Proof.BlockKeep
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load per window and its one store start at the block's corner. -/
theorem corner : (![0, 0] : Fin 2 → Nat) = fun _ => 0 := funext fun a => by fin_cases a <;> rfl

/-- What the result array ends holding: the float argument where the mask argument's bit is set, the float of the
    zero word elsewhere. -/
abbrev result (c : Dev nD) : S128x32768.Idx → Elt F .f32 :=
  Cert.Keep.keep (m ((c : Thread nD τ).loc main_arg1)) (m ((c : Thread nD τ).loc main_arg0))

/-- At every grid point the two input windows are at the output window's block, on both axes (the four points are
    checked). -/
theorem block_indices : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2) :=
  (by decide +kernel : ∀ t : Fin grid0.N, _)

/-- Each of the four column blocks is some grid point's: the block of all rows and of columns `8192 q …`. -/
theorem block_of_columns : ∀ q : Fin 4, ∃ t : Fin cfg0.N, win0_2.index t = ![0, q.val] :=
  (by decide +kernel : ∀ q : Fin 4, ∃ t : Fin grid0.N, win0_2.index t = ![0, q.val])

/-- What point `t` writes back is block `t` of `result`. -/
theorem flushed_eq (c : Dev nD) (t : Fin cfg0.N) :
    (dats m 0 c).flushed 2 t = ((cfg0.win 2).blk t).view.read (Elt F) (result m c) := by
  rw [Value.flushed2]
  unfold out0_2
  rw [View.canon_unit_zero corner]
  simp only [View.ld_unit_zero (S := S128x8192) corner]
  obtain ⟨e0, e1, e2, e3⟩ := block_indices t
  funext j
  show Scalar.select (IntOp.cmpi .ne (V m c main_v0 (((cfg0.win 1).blk t).view.emb j)) 0#32)
      (V m c main_arg0 (((cfg0.win 0).blk t).view.emb j)) (FloatOps.ofBits .f32 0x00000000#32)
    = Scalar.select (m ((c : Thread nD τ).loc main_arg1) (((cfg0.win 2).blk t).view.emb j))
      (m ((c : Thread nD τ).loc main_arg0) (((cfg0.win 2).blk t).view.emb j)) (FloatOps.ofBits .f32 0x00000000#32)
  have h0 : ((cfg0.win 0).blk t).view.emb j = ((cfg0.win 2).blk t).view.emb j := by
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 8192 + 1 * (j 1).val = win0_2.index t (1 : Fin 2) * 8192 + 1 * (j 1).val; omega
  have h1 : ((cfg0.win 1).blk t).view.emb j = ((cfg0.win 2).blk t).view.emb j := by
    funext a; apply Fin.ext
    match a with
    | ⟨0, _⟩ => show win0_1.index t (0 : Fin 2) * 128 + 1 * (j 0).val = win0_2.index t (0 : Fin 2) * 128 + 1 * (j 0).val; omega
    | ⟨1, _⟩ => show win0_1.index t (1 : Fin 2) * 8192 + 1 * (j 1).val = win0_2.index t (1 : Fin 2) * 8192 + 1 * (j 1).val; omega
  rw [h0, h1, V_main_arg0, BlockValue.entry_words]
  show Scalar.select (IntOp.cmpi .ne ((m ((c : Thread nD τ).loc main_arg1) (((cfg0.win 2).blk t).view.emb j)).setWidth 32) 0#32) _ _ = _
  rw [Cert.Keep.widened_ne_zero]

/-- An index of the array is in point `t`'s block iff each coordinate is in the block's range on its axis. -/
theorem mem_block (t : Fin cfg0.N) (i : S128x32768.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v1).slice (win0_2.rect t)).set ↔ _
  rw [View.set_slice_whole, Rect.mem_set_unit]
  exact Iff.rfl

/-- Every index of the array is in the block of the point that writes its column's block of 8192. -/
theorem covered (i : S128x32768.Idx) :
    ∃ t : Fin cfg0.N, (cfg0.win 2).flush t = true ∧ i ∈ ((cfg0.win 2).blk t).view.set := by
  have hi0 : (i 0).val < 128 := (i 0).isLt
  have hi1 : (i 1).val < 32768 := (i 1).isLt
  obtain ⟨t, ht⟩ := block_of_columns ⟨(i 1).val / 8192, by omega⟩
  have q0 : win0_2.index t (0 : Fin 2) = 0 := congrFun ht 0
  have q1 : win0_2.index t (1 : Fin 2) = (i 1).val / 8192 := congrFun ht 1
  refine ⟨t, flush0_2 t, ?_⟩
  rw [mem_block]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 8192 ≤ (i 1).val ∧ (i 1).val < win0_2.index t (1 : Fin 2) * 8192 + 8192; omega

/-- The result array after the run. -/
theorem final (c : Dev nD) : (dats m 0 c).arrAt 2 cfg0.N = result m c :=
  (dats m 0 c).arrAt_eq_of_cover 2 (result m c) (fun t _ => flushed_eq m c t) covered

/-- Every weakly fair execution of the kernel's program ends with the result array at `result` and both arguments
    unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.lean ====
/-
  The kernel and its reference compute the same array.

  Both programs take an array `x` of floats and an array of single bits (a mask), 128 rows by 32768 columns, and return
  the array that holds `x` where the mask's bit is set and the float of the all-zero word elsewhere: `Keep.keep mask x`
  (Proof/Keep.lean). Nothing is computed on the floats, so the equality needs no finiteness and holds entry by entry
  on the extended reals as it would on any float values.

  * The reference is one selection against a broadcast zero: its run's term is `keep mask x` (Proof/RefKeep.lean).
  * The kernel first widens every mask bit to a 32-bit word on the host, then runs over four blocks of 8192 columns;
    on a block it keeps the float where the word is not zero (Proof/BlockKeep.lean). A widened bit is not zero exactly
    when the bit is set, the three windows move together, and the four blocks cover the array, so the result array
    ends at `keep mask x` too (Proof/ArrayKeep.lean).

  The three frames are the programs' runs with the result forgotten; no operation of the kernel was rewritten by the
  idealization, so `preserves` has nothing to state.
-/
import proofs.«165465_g51719996178485_cont_8to1c4_819_24_alg».proof.Defs
import proofs.«165465_g51719996178485_cont_8to1c4_819_24_alg».proof.Proof.Gen.Kernel
import proofs.«165465_g51719996178485_cont_8to1c4_819_24_alg».proof.Proof.Gen.Kernel.Skeleton
import proofs.«165465_g51719996178485_cont_8to1c4_819_24_alg».proof.Proof.Gen.Kernel.Launch
import proofs.«165465_g51719996178485_cont_8to1c4_819_24_alg».proof.Proof.Gen.Kernel.Points
import proofs.«165465_g51719996178485_cont_8to1c4_819_24_alg».proof.Proof.Gen.Kernel.Frame
import proofs.«165465_g51719996178485_cont_8to1c4_819_24_alg».proof.Proof.Gen.KernelIdeal
import proofs.«165465_g51719996178485_cont_8to1c4_819_24_alg».proof.Proof.Gen.KernelIdeal.Skeleton
import proofs.«165465_g51719996178485_cont_8to1c4_819_24_alg».proof.Proof.Gen.KernelIdeal.Launch
import proofs.«165465_g51719996178485_cont_8to1c4_819_24_alg».proof.Proof.Gen.KernelIdeal.Points
import proofs.«165465_g51719996178485_cont_8to1c4_819_24_alg».proof.Proof.Gen.KernelIdeal.Frame
import proofs.«165465_g51719996178485_cont_8to1c4_819_24_alg».proof.Proof.Gen.ReferenceIdeal
import proofs.«165465_g51719996178485_cont_8to1c4_819_24_alg».proof.Proof.Gen.Pre_finite_inputs
import proofs.«165465_g51719996178485_cont_8to1c4_819_24_alg».proof.Proof.Gen.KernelIdeal.Value
import proofs.«165465_g51719996178485_cont_8to1c4_819_24_alg».proof.Proof.Gen.ReferenceIdeal.Run
import proofs.«165465_g51719996178485_cont_8to1c4_819_24_alg».proof.Proof.Gen.ReferenceIdeal.Read
import proofs.«165465_g51719996178485_cont_8to1c4_819_24_alg».proof.Proof.RefKeep
import proofs.«165465_g51719996178485_cont_8to1c4_819_24_alg».proof.Proof.ArrayKeep
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is no conjunct to prove. -/
theorem preserves : Cert.preserves_Kernel_KernelIdeal := trivial

/-- From memories that agree on the two arguments, the kernel's result array and the reference's both end at
    `keep mask x` of the kernel's arguments. -/
theorem algebraic : Cert.algebraic_KernelIdeal_ReferenceIdeal := by
  intro m ρ m' ρ' _ hagree
  refine ⟨fun c => Cert.KernelIdeal.ArrayValue.result m c, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
